-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x128 : Shape := ⟨3, ![8, 1, 128]⟩
abbrev S1x256x3 : Shape := ⟨3, ![1, 256, 3]⟩
abbrev S1x3x4096 : Shape := ⟨3, ![1, 3, 4096]⟩
abbrev S1x1x128 : Shape := ⟨3, ![1, 1, 128]⟩
abbrev S1x4096 : Shape := ⟨2, ![1, 4096]⟩
abbrev S1x1 : Shape := ⟨2, ![1, 1]⟩
abbrev S256x3 : Shape := ⟨2, ![256, 3]⟩
abbrev S3x4096 : Shape := ⟨2, ![3, 4096]⟩
abbrev S256x4096 : Shape := ⟨2, ![256, 4096]⟩
abbrev S256x1 : Shape := ⟨2, ![256, 1]⟩
abbrev S256 : Shape := ⟨1, ![256]⟩
abbrev S1 : Shape := ⟨1, ![1]⟩
abbrev S4096 : Shape := ⟨1, ![4096]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 6
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x1x128, .f32⟩
  | .hbm, ⟨4, _⟩ => ⟨S8x1x1, .f32⟩
  | .hbm, ⟨5, _⟩ => ⟨S8, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x128, .f32⟩
  | .local _ .vmem, ⟨5, _⟩ => ⟨S1x1x128, .f32⟩
  | .local _ .vmem, ⟨6, _⟩ => ⟨S1x4096, .f32⟩
  | .local _ .vmem, ⟨7, _⟩ => ⟨S1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_17 : BitVec 32 := 0#32
  let v47 : BitVec 1 := Scalar.cmpi .ne v46 c0_i32_17
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8x4096x3_S8x3x4096_0_2_1 : S8x4096x3.Transposes [0, 2, 1] S8x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S256x3_o0_0_S256x1 : S256x3.Slices ![0, 0] S256x1
  slices_S3x4096_o0_0_S1x4096 : S3x4096.Slices ![0, 0] S1x4096
  broadcasts_S256x1_S256x4096 : S256x1.Broadcasts S256x4096
  broadcasts_S1x4096_S256x4096 : S1x4096.Broadcasts S256x4096
  slices_S256x3_o0_1_S256x1 : S256x3.Slices ![0, 1] S256x1
  slices_S3x4096_o1_0_S1x4096 : S3x4096.Slices ![1, 0] S1x4096
  slices_S256x3_o0_2_S256x1 : S256x3.Slices ![0, 2] S256x1
  slices_S3x4096_o2_0_S1x4096 : S3x4096.Slices ![2, 0] S1x4096
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  reduces_S256x4096_S4096 : S256x4096.Reduces [0] S4096
  shapeCasts_S4096_S1x4096 : S4096.ShapeCasts S1x4096
  reduces_S1x4096_S1 : S1x4096.Reduces [1] S1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S8x4096x3.size a
  hwx0_0 : ∀ i : grid0.Coords, EltTy.bits .f32 = 32 ∨ (Rect.block (s := S8x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S8, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  reducesTo_S8x4096x4096_S8x4096_d1 : S8x4096x4096.ReducesTo [1] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The chamfer sum as pure functions of two point clouds, over the extended reals.

  A cloud is read through total coordinates `X b n k` (batch, point, axis). Three forms of one number per batch `b`:

    * `G`     — the sum over the first cloud's points of the least squared distance to the second cloud, plus the same
                with the clouds' roles exchanged, the squared distance written as a sum of squared differences;
    * `Rform` — the same with the squared distance expanded as |x|² + |y|² − 2 x·y;
    * `Kform` — the first sum accumulated over sixteen tiles of 256 points, the per-column least distances accumulated
                as a running minimum over the same tiles, the column sum taken at the end.

  Every minimum is a fold of `min` from the literal +∞ over a finite index type (`minF`), every sum a `Finset` sum; the
  three literals are kept as bit patterns and evaluated once below.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- The f32 pattern of +∞. -/
abbrev INF : EReal := Ideal.ofBits .f32 0x7F800000#32
/-- The f32 pattern of 0. -/
abbrev Z : EReal := Ideal.ofBits .f32 0x00000000#32
/-- The f32 pattern of 2. -/
abbrev TWO : EReal := Ideal.ofBits .f32 0x40000000#32

/-- A minimum over a finite index type: the fold of `min` from +∞. -/
def minF {n : ℕ} (f : Fin n → EReal) : EReal := (Finset.univ : Finset (Fin n)).fold min INF f

/-- A rank-3 array of extents 8 × 4096 × 3 read at natural-number coordinates (zero outside the extents). -/
def at3 (x : (⟨3, ![8, 4096, 3]⟩ : Shape).Idx → EReal) (b n k : ℕ) : EReal :=
  if h : b < 8 ∧ n < 4096 ∧ k < 3 then x (ix3 ⟨b, h.1⟩ ⟨n, h.2.1⟩ ⟨k, h.2.2⟩) else 0

theorem at3_ix3 (x : (⟨3, ![8, 4096, 3]⟩ : Shape).Idx → EReal) (b : Fin 8) (n : Fin 4096) (k : Fin 3) :
    at3 x b.val n.val k.val = x (ix3 b n k) := by
  unfold at3
  rw [dif_pos ⟨b.isLt, n.isLt, k.isLt⟩]

variable (X Y : ℕ → ℕ → ℕ → EReal)

/-- The squared distance between point `n` of `X` and point `m` of `Y` in batch `b`, as a sum of squared differences
    accumulated from zero, axis by axis. -/
def dK (b n m : ℕ) : EReal :=
  ((Z + (X b n 0 - Y b m 0) * (X b n 0 - Y b m 0)) + (X b n 1 - Y b m 1) * (X b n 1 - Y b m 1))
    + (X b n 2 - Y b m 2) * (X b n 2 - Y b m 2)

/-- The same squared distance expanded: |x|² + |y|² − 2 x·y, each sum over the three axes. -/
def dR (b n m : ℕ) : EReal :=
  ((Z + ∑ k : Fin 3, X b n k * X b n k) + (Z + ∑ k : Fin 3, Y b m k * Y b m k))
    - TWO * (∑ k : Fin 3, X b n k * Y b m k)

/-- The chamfer sum of batch `b` over the sum-of-squared-differences distance. -/
def G (b : ℕ) : EReal :=
  (Z + ∑ n : Fin 4096, minF fun m : Fin 4096 => dK X Y b n m)
    + (Z + ∑ m : Fin 4096, minF fun n : Fin 4096 => dK X Y b n m)

/-- The chamfer sum of batch `b` over the expanded distance. -/
def Rform (b : ℕ) : EReal :=
  (Z + ∑ n : Fin 4096, minF fun m : Fin 4096 => dR X Y b n m)
    + (Z + ∑ m : Fin 4096, minF fun n : Fin 4096 => dR X Y b n m)

/-- Tile `i` (points 256 i … 256 i + 255 of `X`): the least distance from the tile to point `m` of `Y`. -/
def tileCol (b i m : ℕ) : EReal := minF fun r : Fin 256 => dK X Y b (256 * i + r) m

/-- Tile `i`: the sum over the tile's points of their least distance to `Y`. -/
def tileRow (b i : ℕ) : EReal := ∑ r : Fin 256, minF fun m : Fin 4096 => dK X Y b (256 * i + r) m

/-- The running column minimum after tiles 0 … i, started from +∞. -/
def colN (b : ℕ) : ℕ → ℕ → EReal
  | 0, m => min INF (tileCol X Y b 0 m)
  | i + 1, m => min (colN b i m) (tileCol X Y b (i + 1) m)

/-- The running row sum after tiles 0 … i, started from zero. -/
def rowN (b : ℕ) : ℕ → EReal
  | 0 => Z + tileRow X Y b 0
  | i + 1 => rowN b i + tileRow X Y b (i + 1)

/-- The tiled form: the row sum after the sixteenth tile plus the sum of the column minima after it. -/
def Kform (b : ℕ) : EReal := rowN X Y b 15 + ∑ m : Fin 4096, colN X Y b 15 m

end Cert.Chamfer

end
-- ==== Proof.Pieces.lean ====
/-
  What each control case of the kernel body leaves in the two carried scratch buffers and in the output block, as the
  body's named arithmetic terms of the input blocks and of what the scratch buffers held before:

    running column minimum  :=  min (what it held, +∞ at a batch's first tile) (this tile's column minima)
    running row sum         :=  (what it held, 0 at a batch's first tile) + (this tile's sum of row minima)
    output block (last tile):=  the running row sum + the sum of the running column minima, in every lane.

  Every store covers its whole buffer, so the buffer reads back as the last store's value; a load that follows a store
  in the same case reads that store's value.
-/
import proofs.«135261_j78391743087244_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x1x128 .f32) (harg4 : arg4.IsWhole) (arg5 : Memref sig .tc .vmem S1x4096 .f32) (harg5 : arg5.IsWhole) (arg6 : Memref sig .tc .vmem S1x1 .f32) (harg6 : arg6.IsWhole)
  (x0 : Vec F S1x256x3 .f32) (x1 : Vec F S1x3x4096 .f32) (xs0 : Vec F S1x4096 .f32) (xs1 : Vec F S1x1 .f32)

/-- A tile that is neither first nor last: the column minimum buffer ends at min(before, tile). -/
theorem sB0 (hc0 : ¬cond0_0 i) (hc1 : ¬cond0_1 i) :
    sout0_B_0 c i arg2 harg2 arg3 harg3 arg4 harg4 arg5 harg5 arg6 harg6 hc0 hc1 x0 x1 xs0 xs1 = k0_pay1 (k0_pay7 x0 x1) xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread,
    View.ld_unit_zero (S := S1x4096) hz2, View.ld_unit_zero (S := S1x256x3) hz3, View.ld_unit_zero (S := S1x3x4096) hz3]

/-- A tile that is neither first nor last: the row sum buffer ends at before + tile. -/
theorem sB1 (hc0 : ¬cond0_0 i) (hc1 : ¬cond0_1 i) :
    sout0_B_1 c i arg2 harg2 arg3 harg3 arg4 harg4 arg5 harg5 arg6 harg6 hc0 hc1 x0 x1 xs0 xs1 = k0_pay6 x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread,
    View.ld_unit_zero (S := S1x1) hz2, View.ld_unit_zero (S := S1x256x3) hz3, View.ld_unit_zero (S := S1x3x4096) hz3]

/-- A batch's last tile: the column minimum buffer ends at min(before, tile), as at any later tile. -/
theorem sC0 (hc0 : ¬cond0_0 i) (hc1 : cond0_1 i) :
    sout0_C_0 c i arg2 harg2 arg3 harg3 arg4 harg4 arg5 harg5 arg6 harg6 hc0 hc1 x0 x1 xs0 xs1 = k0_pay1 (k0_pay7 x0 x1) xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread,
    View.ld_unit_zero (S := S1x4096) hz2, View.ld_unit_zero (S := S1x256x3) hz3, View.ld_unit_zero (S := S1x3x4096) hz3]

/-- A batch's last tile: the row sum buffer ends at before + tile. -/
theorem sC1 (hc0 : ¬cond0_0 i) (hc1 : cond0_1 i) :
    sout0_C_1 c i arg2 harg2 arg3 harg3 arg4 harg4 arg5 harg5 arg6 harg6 hc0 hc1 x0 x1 xs0 xs1 = k0_pay6 x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread,
    View.ld_unit_zero (S := S1x1) hz2, View.ld_unit_zero (S := S1x256x3) hz3, View.ld_unit_zero (S := S1x3x4096) hz3]

/-- A batch's last tile: the output block is, in every lane, the final row sum plus the sum of the final column minima. -/
theorem oC2 (hc0 : ¬cond0_0 i) (hc1 : cond0_1 i) :
    out0_C_2 c i arg2 harg2 arg3 harg3 arg4 harg4 arg5 harg5 arg6 harg6 hc0 hc1 x0 x1 xs0 xs1 = k0_pay2 (k0_pay1 (k0_pay7 x0 x1) xs0) (k0_pay6 x0 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz3, View.readCov_unit_zero (S := S1x4096) _ hz2, View.readCov_unit_zero (S := S1x1) _ hz2]
  simp only [View.readAt_eq_ld, harg2.read_unread, harg3.read_unread, harg5.read_unread, harg6.read_unread,
    View.ld_unit_zero (S := S1x4096) hz2, View.ld_unit_zero (S := S1x1) hz2, View.ld_unit_zero (S := S1x256x3) hz3, View.ld_unit_zero (S := S1x3x4096) hz3]

/-- A batch's first tile: the column minimum buffer is first set to +∞, then ends at min(+∞, tile). -/
theorem sA0 (hc0 : cond0_0 i) (hc1 : ¬cond0_1 i) :
    sout0_A_0 c i arg2 harg2 arg3 harg3 arg4 harg4 arg5 harg5 arg6 harg6 hc0 hc1 x0 x1 = k0_pay1 (k0_pay7 x0 x1) k0_pay3 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2, View.readCov_unit_zero (S := S1x4096) _ hz2]
  simp only [View.readAt_eq_ld, harg2.read_unread, harg3.read_unread, harg5.read_unread, harg6.read_unread,
    View.ld_unit_zero (S := S1x4096) hz2, View.ld_unit_zero (S := S1x1) hz2, View.ld_unit_zero (S := S1x256x3) hz3, View.ld_unit_zero (S := S1x3x4096) hz3]

/-- A batch's first tile: the row sum buffer is first set to 0, then ends at 0 + tile. -/
theorem sA1 (hc0 : cond0_0 i) (hc1 : ¬cond0_1 i) :
    sout0_A_1 c i arg2 harg2 arg3 harg3 arg4 harg4 arg5 harg5 arg6 harg6 hc0 hc1 x0 x1 = k0_pay6 x0 x1 k0_pay4 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg5.read_unread, harg6.read_unread,
    View.ld_unit_zero (S := S1x4096) hz2, View.ld_unit_zero (S := S1x1) hz2, View.ld_unit_zero (S := S1x256x3) hz3, View.ld_unit_zero (S := S1x3x4096) hz3]

end Cert.KernelIdeal.Pieces

end
-- ==== Proof.LibColumnLayouts.lean ====
/-
  Column ("keepdims") layout operations and one-axis minimum reductions read at an index, for any extents:

    * a column `[a, 1]` broadcast to `[a, b]` reads, at `(p, c)`, the column at `p`;
    * a vector `[a]` cast to a column `[a, 1]` reads, at `(p, u)`, the vector at `p`;
    * a `[1, 1, 1]` array broadcast along its last axis to `[1, 1, b]` reads its one element everywhere;
    * at the exact instance a `vector.multi_reduction <minimumf>` over ONE axis is, at each reduced index, the fold of
      `min` from the accumulator's value over that axis's coordinates (the inserted index is `Shape.Reduces.lift`).
-/
import Idealize.ShloMosaic.PureOps.Ideal.Laws
import Idealize.ShloMosaic.Lib.Pipeline.Value
import Idealize.ShloMosaic.Lib.ValueIdx
import Idealize.ShloMosaic.Lib.ValueLayout

noncomputable section

namespace Idealize.ShloMosaic.ColumnLayouts

open Idealize.ShloMosaic Idealize.ShloMosaic.ValueIdx

variable {α : Type}

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A `[1, 1, 1]` array broadcast to `[1, 1, b]` reads its one element at every lane. -/
theorem broadcastTo_111_11b_apply {b : ℕ} (v : (⟨3, ![1, 1, 1]⟩ : Shape).Idx → α)
    (h : (⟨3, ![1, 1, 1]⟩ : Shape).Broadcasts ⟨3, ![1, 1, b]⟩) (u0 u1 : Fin 1) (c : Fin b) :
    broadcastTo ⟨3, ![1, 1, b]⟩ v h (ix3 u0 u1 c) = v (ix3 (0 : Fin 1) (0 : Fin 1) (0 : Fin 1)) := by
  refine broadcastTo_apply v h (ix3 u0 u1 c) (ix3 (0 : Fin 1) (0 : Fin 1) (0 : Fin 1)) fun ax => ?_
  match ax with
  | ⟨0, _⟩ => rfl
  | ⟨1, _⟩ => rfl
  | ⟨2, _⟩ => rfl

variable {φ : FTy}

/-- A float `vector.multi_reduction <minimumf>` over one axis, read at the exact instance: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

end Idealize.ShloMosaic.ColumnLayouts

end
-- ==== Proof.Payload.lean ====
/-
  The kernel body's arithmetic read at an index, at the exact instance.

  With `x0` a tile of 256 points of the first cloud (`[1, 256, 3]`) and `x1` the whole transposed second cloud of the
  batch (`[1, 3, 4096]`):

    * the distance tile at (r, m) is the sum over the three axes of the squared differences of point r of the tile and
      point m of the second cloud, accumulated from zero;
    * the tile's column minima at m: the fold of `min` from +∞ over the tile's rows r; the running column minimum is
      `min` of what the buffer held and that;
    * the running row sum: what the buffer held plus the sum over the tile's rows of each row's minimum over all m;
    * the output block: in every lane, the row sum plus the sum over m of the column minima.
-/
import proofs.«135261_j78391743087244_2_alg».proof.Proof.Spec
import proofs.«135261_j78391743087244_2_alg».proof.Proof.LibColumnLayouts
import proofs.«135261_j78391743087244_2_alg».proof.Proof.Gen.KernelIdeal.Skeleton

noncomputable section

open scoped BigOperators

namespace Cert.KernelIdeal.Pay

open Cert.KernelIdeal Cert.KernelIdeal.Gen Idealize.ShloMosaic Idealize.ShloMosaic.ValueIdx Idealize.ShloMosaic.ColumnLayouts
open Cert.Chamfer

/-- Point r of the tile against point m of the second cloud: the squared differences summed from zero. -/
def dBlk (x0 : FVec Ideal S1x256x3 .f32) (x1 : FVec Ideal S1x3x4096 .f32) (r : Fin 256) (mm : Fin 4096) : EReal :=
  ((Z + (x0 (ix3 (0 : Fin 1) r (0 : Fin 3)) - x1 (ix3 (0 : Fin 1) (0 : Fin 3) mm)) * (x0 (ix3 (0 : Fin 1) r (0 : Fin 3)) - x1 (ix3 (0 : Fin 1) (0 : Fin 3) mm)))
    + (x0 (ix3 (0 : Fin 1) r (1 : Fin 3)) - x1 (ix3 (0 : Fin 1) (1 : Fin 3) mm)) * (x0 (ix3 (0 : Fin 1) r (1 : Fin 3)) - x1 (ix3 (0 : Fin 1) (1 : Fin 3) mm)))
    + (x0 (ix3 (0 : Fin 1) r (2 : Fin 3)) - x1 (ix3 (0 : Fin 1) (2 : Fin 3) mm)) * (x0 (ix3 (0 : Fin 1) r (2 : Fin 3)) - x1 (ix3 (0 : Fin 1) (2 : Fin 3) mm))

/-- One axis's column of the tile, broadcast along the columns, at (r, m): the tile's point r at that axis. -/
theorem colpart (x0 : FVec Ideal S1x256x3 .f32) (k : Nat) (k' : Fin 3) (hk : k'.val = k + 0)
    (hs : S256x3.Slices ![0, k] S256x1) (r : Fin 256) (mm : Fin 4096) :
    broadcastTo S256x4096 (extractStridedSlice S256x1 ![0, k] (shapeCast S256x3 x0 shapeCasts_S1x256x3_S256x3) hs)
      broadcasts_S256x1_S256x4096 (ix2 r mm) = x0 (ix3 (0 : Fin 1) r k') := by
  refine (broadcastTo_a1_ab_apply _ _ r mm).trans ?_
  refine (slice2_axis1_apply k _ hs r (0 : Fin 1) k' hk).trans ?_
  exact shapeCast_1ab_ab_apply x0 _ r k'

/-- One axis's row of the second cloud, broadcast along the rows, at (r, m): the cloud's point m at that axis. -/
theorem rowpart (x1 : FVec Ideal S1x3x4096 .f32) (k : Nat) (k' : Fin 3) (hk : k'.val = k + 0)
    (hs : S3x4096.Slices ![k, 0] S1x4096) (r : Fin 256) (mm : Fin 4096) :
    broadcastTo S256x4096 (extractStridedSlice S1x4096 ![k, 0] (shapeCast S3x4096 x1 shapeCasts_S1x3x4096_S3x4096) hs)
      broadcasts_S1x4096_S256x4096 (ix2 r mm) = x1 (ix3 (0 : Fin 1) k' mm) := by
  refine (broadcastTo_1b_ab_apply _ _ r mm).trans ?_
  refine (slice2_axis0_apply k _ hs (0 : Fin 1) mm k' hk).trans ?_
  exact shapeCast_1ab_ab_apply x1 _ k' mm

theorem pay5_apply (x0 : FVec Ideal S1x256x3 .f32) (x1 : FVec Ideal S1x3x4096 .f32) (r : Fin 256) (mm : Fin 4096) :
    k0_pay5 (F := Ideal) x0 x1 (ix2 r mm) = dBlk x0 x1 r mm := by
  unfold k0_pay5 dBlk
  simp only [addf_apply, mulf_apply, subf_apply, broadcast_apply]
  rw [colpart x0 0 0 rfl, colpart x0 1 1 rfl, colpart x0 2 2 rfl, rowpart x1 0 0 rfl, rowpart x1 1 1 rfl, rowpart x1 2 2 rfl]
  rfl

/-- The +∞ the first tile stores into the column-minimum buffer. -/
theorem pay3_apply (j : S1x4096.Idx) : k0_pay3 (F := Ideal) j = INF := by
  unfold k0_pay3
  rw [shapeCast_self]
  rfl

/-- The zero the first tile stores into the row-sum buffer. -/
theorem pay4_apply (j : S1x1.Idx) : k0_pay4 (F := Ideal) j = Z := by
  unfold k0_pay4
  rw [shapeCast_self]
  rfl

/-- The running column minimum at m: `min` of what the buffer held and the tile's column minimum. -/
theorem pay1_apply (v39 v40 : FVec Ideal S1x4096 .f32) (j : S1x4096.Idx) :
    k0_pay1 (F := Ideal) v39 v40 j = min (v40 j) (v39 j) := by
  unfold k0_pay1
  rw [shapeCast_self]
  rfl

/-- The tile's column minimum at m: the fold of `min` from +∞ over the tile's 256 rows. -/
theorem pay7_apply (x0 : FVec Ideal S1x256x3 .f32) (x1 : FVec Ideal S1x3x4096 .f32) (mm : Fin 4096) :
    k0_pay7 (F := Ideal) x0 x1 (ix2 (0 : Fin 1) mm) = minF fun r : Fin 256 => dBlk x0 x1 r mm := by
  unfold k0_pay7
  refine (shapeCast_a_1a_apply _ _ (0 : Fin 1) mm).trans ?_
  refine (multiReduction_minimumf_single (k0_pay5 x0 x1) 0x7F800000#32 reduces_S256x4096_S4096 (.inl rfl) rfl (ix1 mm)).trans ?_
  unfold minF
  refine congrArg (fun f : Fin 256 → EReal => (Finset.univ : Finset (Fin 256)).fold min INF f) (funext fun r : Fin 256 => ?_)
  have ei : reduces_S256x4096_S4096.lift (ix1 mm) r = ix2 r mm :=
    funext fun a => Fin.ext (by match a with | ⟨0, _⟩ => rfl | ⟨1, _⟩ => rfl)
  show k0_pay5 (F := Ideal) x0 x1 (reduces_S256x4096_S4096.lift (ix1 mm) r) = _
  rw [ei, pay5_apply]

/-- The running row sum: what the buffer held plus the sum over the tile's rows of each row's minimum over all 4096
    points of the second cloud. -/
theorem pay6_apply (x0 : FVec Ideal S1x256x3 .f32) (x1 : FVec Ideal S1x3x4096 .f32) (v33 : FVec Ideal S1x1 .f32) :
    k0_pay6 (F := Ideal) x0 x1 v33 (ix2 (0 : Fin 1) (0 : Fin 1))
      = v33 (ix2 (0 : Fin 1) (0 : Fin 1)) + ∑ r : Fin 256, minF fun mm : Fin 4096 => dBlk x0 x1 r mm := by
  unfold k0_pay6
  rw [shapeCast_self]
  refine congrArg (fun z : EReal => v33 (ix2 (0 : Fin 1) (0 : Fin 1)) + z) ?_
  refine (shapeCast_a_1a_apply _ _ (0 : Fin 1) (0 : Fin 1)).trans ?_
  refine (Ideal.multiReduction_add_single _ 0x00000000#32 reduces_S256x1_S1 (.inl rfl) rfl (ix1 (0 : Fin 1))).trans ?_
  refine Finset.sum_congr rfl fun (r : Fin 256) _ => ?_
  have ei : reduces_S256x1_S1.lift (ix1 (0 : Fin 1)) r = ix2 r (0 : Fin 1) :=
    funext fun a => Fin.ext (by match a with | ⟨0, _⟩ => rfl | ⟨1, _⟩ => rfl)
  rw [ei]
  refine (shapeCast_a_a1_apply _ _ r (0 : Fin 1)).trans ?_
  refine (multiReduction_minimumf_single (k0_pay5 x0 x1) 0x7F800000#32 reduces_S256x4096_S256 (.inl rfl) rfl (ix1 r)).trans ?_
  unfold minF
  refine congrArg (fun f : Fin 4096 → EReal => (Finset.univ : Finset (Fin 4096)).fold min INF f) (funext fun mm : Fin 4096 => ?_)
  have ej : reduces_S256x4096_S256.lift (ix1 r) mm = ix2 r mm :=
    funext fun a => Fin.ext (by match a with | ⟨0, _⟩ => rfl | ⟨1, _⟩ => rfl)
  show k0_pay5 (F := Ideal) x0 x1 (reduces_S256x4096_S256.lift (ix1 r) mm) = _
  rw [ej, pay5_apply]

/-- The output block, in every lane: the final row sum plus the sum over the 4096 columns of the final column minima. -/
theorem pay2_apply (v48 : FVec Ideal S1x4096 .f32) (v51 : FVec Ideal S1x1 .f32) (l : Fin 128) :
    k0_pay2 (F := Ideal) v48 v51 (ix3 (0 : Fin 1) (0 : Fin 1) l)
      = v51 (ix2 (0 : Fin 1) (0 : Fin 1)) + ∑ mm : Fin 4096, v48 (ix2 (0 : Fin 1) mm) := by
  unfold k0_pay2
  refine (broadcastTo_111_11b_apply _ _ (0 : Fin 1) (0 : Fin 1) l).trans ?_
  rw [shapeCast_self]
  refine (shapeCast_ab_1ab_apply _ _ (0 : Fin 1) (0 : Fin 1) (0 : Fin 1)).trans ?_
  refine congrArg (fun z : EReal => v51 (ix2 (0 : Fin 1) (0 : Fin 1)) + z) ?_
  refine (shapeCast_a_1a_apply _ _ (0 : Fin 1) (0 : Fin 1)).trans ?_
  refine (Ideal.multiReduction_add_single _ 0x00000000#32 reduces_S1x4096_S1 (.inl rfl) rfl (ix1 (0 : Fin 1))).trans ?_
  refine Finset.sum_congr rfl fun (mm : Fin 4096) _ => ?_
  have ei : reduces_S1x4096_S1.lift (ix1 (0 : Fin 1)) mm = ix2 (0 : Fin 1) mm :=
    funext fun a => Fin.ext (by match a with | ⟨0, _⟩ => rfl | ⟨1, _⟩ => rfl)
  rw [ei]

end Cert.KernelIdeal.Pay

end
-- ==== Proof.Blocks.lean ====
/-
  The input blocks a grid point sees, read at natural coordinates of the two clouds.

  Grid point t is batch t / 16 and tile t % 16. The first window's block at t is rows 256 (t % 16) … + 255 of batch
  t / 16 of the first cloud; the second window's block is the whole batch t / 16 of the TRANSPOSED second cloud, which
  a host transpose wrote before the kernel: its entry (k, m) is the second cloud's point m at axis k.
-/
import proofs.«135261_j78391743087244_2_alg».proof.Proof.Spec
import proofs.«135261_j78391743087244_2_alg».proof.Proof.Gen.KernelIdeal.Frame
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Blk

open Cert.KernelIdeal Cert.KernelIdeal.Gen Idealize.ShloMosaic.ValueIdx Cert.Chamfer

variable (m : (ℓ : Loc nD τ sig) → Buf (Elt Ideal) ℓ)

/-- The first window's block index at point t: (batch, tile, 0). -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)
/-- The second window's block index at point t: (batch, 0, 0). -/
theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, win0_1.index t (0 : Fin 3) = t.val / 16 ∧ win0_1.index t (1 : Fin 3) = 0 ∧ win0_1.index t (2 : Fin 3) = 0)
/-- The output window's block index at point t: (batch, 0, 0). -/
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, win0_2.index t (0 : Fin 3) = t.val / 16 ∧ win0_2.index t (1 : Fin 3) = 0 ∧ win0_2.index t (2 : Fin 3) = 0)

/-- The array the second window stages is the host transpose of the second cloud. -/
theorem V_v0 (c : Dev nD) : (V m c main_v0 : S8x3x4096.Idx → EReal)
    = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-- The first window's block at t, entry (r, k): point 256 (t % 16) + r of batch t / 16 of the first cloud, axis k. -/
theorem iblk0_apply (c : Dev nD) (t : Fin cfg0.N) (r : Fin 256) (k : Fin 3) :
    (iblk m c 0 t : Vec Ideal S1x256x3 .f32) (ix3 (0 : Fin 1) r k)
      = at3 (m ((c : Thread nD τ).loc main_arg0)) (t.val / 16) (256 * (t.val % 16) + r.val) k.val := by
  have hN : cfg0.N = 128 := N_0
  have ht := t.isLt
  have hr := r.isLt
  obtain ⟨h0, h1, h2⟩ := idx0 t
  have hb : t.val / 16 < 8 := by omega
  have hn : 256 * (t.val % 16) + r.val < 4096 := by omega
  unfold iblk at3
  rw [View.read_apply, dif_pos ⟨hb, hn, k.isLt⟩]
  show V m c main_arg0 _ = _
  rw [V_main_arg0]
  refine congrArg (m ((c : Thread nD τ).loc main_arg0)) (funext fun a => Fin.ext ?_)
  match a with
  | ⟨0, _⟩ => show win0_0.index t 0 * 1 + 1 * 0 = t.val / 16; rw [h0]; omega
  | ⟨1, _⟩ => show win0_0.index t 1 * 256 + 1 * r.val = 256 * (t.val % 16) + r.val; rw [h1]; omega
  | ⟨2, _⟩ => show win0_0.index t 2 * 3 + 1 * k.val = k.val; rw [h2]; omega

/-- The second window's block at t, entry (k, m): point m of batch t / 16 of the second cloud, axis k. -/
theorem iblk1_apply (c : Dev nD) (t : Fin cfg0.N) (k : Fin 3) (mm : Fin 4096) :
    (iblk m c 1 t : Vec Ideal S1x3x4096 .f32) (ix3 (0 : Fin 1) k mm)
      = at3 (m ((c : Thread nD τ).loc main_arg1)) (t.val / 16) mm.val k.val := by
  have hN : cfg0.N = 128 := N_0
  have ht := t.isLt
  obtain ⟨h0, h1, h2⟩ := idx1 t
  have hb : t.val / 16 < 8 := by omega
  unfold iblk
  rw [View.read_apply]
  show V m c main_v0 _ = _
  rw [V_v0]
  have ei : (((cfg0.win 1).blk t).view.emb (ix3 (0 : Fin 1) k mm) : S8x3x4096.Idx) = ix3 (⟨t.val / 16, hb⟩ : Fin 8) k mm :=
    funext fun a => Fin.ext (by
      match a with
      | ⟨0, _⟩ => show win0_1.index t 0 * 1 + 1 * 0 = t.val / 16; rw [h0]; omega
      | ⟨1, _⟩ => show win0_1.index t 1 * 3 + 1 * k.val = k.val; rw [h1]; omega
      | ⟨2, _⟩ => show win0_1.index t 2 * 4096 + 1 * mm.val = mm.val; rw [h2]; omega)
  rw [ei, transpose_ix3_021_apply]
  exact (at3_ix3 _ (⟨t.val / 16, hb⟩ : Fin 8) mm k).symm

end Cert.KernelIdeal.Blk

end
-- ==== Proof.Accum.lean ====
/-
  The accumulation across the grid: what the two carried buffers and the output block hold after each point.

  Grid point n is batch n / 16 and tile n % 16. By induction on n, after point n the column-minimum buffer holds, at
  column m, the running minimum `colN` over tiles 0 … n % 16 of batch n / 16, and the row-sum buffer holds the running
  sum `rowN` over the same tiles (a batch's first tile restarts both from +∞ and 0). At a batch's last tile the output
  block holds, in every lane, the tiled form `Kform` of the batch.
-/
import proofs.«135261_j78391743087244_2_alg».proof.Proof.Spec
import proofs.«135261_j78391743087244_2_alg».proof.Proof.Pieces
import proofs.«135261_j78391743087244_2_alg».proof.Proof.Payload
import proofs.«135261_j78391743087244_2_alg».proof.Proof.Blocks

noncomputable section

open scoped BigOperators
open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Chamfer

variable (m : (ℓ : Loc nD τ sig) → Buf (Elt Ideal) ℓ)

/-- The first cloud at natural coordinates. -/
abbrev XA (c : Dev nD) : ℕ → ℕ → ℕ → EReal := at3 (m ((c : Thread nD τ).loc main_arg0))
/-- The second cloud at natural coordinates. -/
abbrev YA (c : Dev nD) : ℕ → ℕ → ℕ → EReal := at3 (m ((c : Thread nD τ).loc main_arg1))

/-- The column-minimum buffer's contents after tile i of batch b. -/
def colVec (X Y : ℕ → ℕ → ℕ → EReal) (b i : ℕ) : Vec Ideal S1x4096 .f32 := fun j => colN X Y b i (j 1).val
/-- The row-sum buffer's contents after tile i of batch b. -/
def rowVec (X Y : ℕ → ℕ → ℕ → EReal) (b i : ℕ) : Vec Ideal S1x1 .f32 := fun _ => rowN X Y b i

/-- The distance tile of point t at (r, m) is the squared distance of point 256 (t % 16) + r of the first cloud and point
    m of the second, in batch t / 16. -/
theorem dBlk_eq (c : Dev nD) (t : Fin cfg0.N) (r : Fin 256) (mm : Fin 4096) :
    Pay.dBlk (iblk m c 0 t) (iblk m c 1 t) r mm
      = dK (XA m c) (YA m c) (t.val / 16) (256 * (t.val % 16) + r.val) mm.val := by
  unfold Pay.dBlk dK
  rw [Blk.iblk0_apply m c t r 0, Blk.iblk0_apply m c t r 1, Blk.iblk0_apply m c t r 2,
    Blk.iblk1_apply m c t 0 mm, Blk.iblk1_apply m c t 1 mm, Blk.iblk1_apply m c t 2 mm]
  rfl

theorem tileCol_eq (c : Dev nD) (t : Fin cfg0.N) (mm : Fin 4096) :
    k0_pay7 (F := Ideal) (iblk m c 0 t) (iblk m c 1 t) (ix2 (0 : Fin 1) mm)
      = tileCol (XA m c) (YA m c) (t.val / 16) (t.val % 16) mm.val := by
  refine (Pay.pay7_apply (iblk m c 0 t) (iblk m c 1 t) mm).trans ?_
  unfold tileCol
  exact congrArg minF (funext fun r => dBlk_eq m c t r mm)

theorem tileRow_eq (c : Dev nD) (t : Fin cfg0.N) :
    (∑ r : Fin 256, minF fun mm : Fin 4096 => Pay.dBlk (iblk m c 0 t) (iblk m c 1 t) r mm)
      = tileRow (XA m c) (YA m c) (t.val / 16) (t.val % 16) := by
  unfold tileRow
  exact Finset.sum_congr rfl fun r _ => congrArg minF (funext fun mm => dBlk_eq m c t r mm)

/-- The column minima after a tile, given what the buffer held before: +∞ for a batch's first tile … -/
theorem col_first (c : Dev nD) (t : Fin cfg0.N) (h0 : t.val % 16 = 0) :
    k0_pay1 (F := Ideal) (k0_pay7 (iblk m c 0 t) (iblk m c 1 t)) (k0_pay3 (F := Ideal)) = colVec (XA m c) (YA m c) (t.val / 16) (t.val % 16) := by
  funext j
  obtain ⟨u, mm, rfl⟩ : ∃ (u : Fin 1) (mm : Fin 4096), j = ix2 u mm := ⟨j 0, j 1, eq_ix2 j⟩
  obtain rfl : u = 0 := Subsingleton.elim _ _
  rw [Pay.pay1_apply, Pay.pay3_apply, tileCol_eq, h0]
  rfl

/-- … and the running minimum of the tiles before for a later tile. -/
theorem col_next (c : Dev nD) (t : Fin cfg0.N) (i : ℕ) (hi : t.val % 16 = i + 1) (xs0 : Vec Ideal S1x4096 .f32)
    (hxs : xs0 = colVec (XA m c) (YA m c) (t.val / 16) i) :
    k0_pay1 (F := Ideal) (k0_pay7 (iblk m c 0 t) (iblk m c 1 t)) xs0 = colVec (XA m c) (YA m c) (t.val / 16) (t.val % 16) := by
  subst hxs
  funext j
  obtain ⟨u, mm, rfl⟩ : ∃ (u : Fin 1) (mm : Fin 4096), j = ix2 u mm := ⟨j 0, j 1, eq_ix2 j⟩
  obtain rfl : u = 0 := Subsingleton.elim _ _
  rw [Pay.pay1_apply, tileCol_eq, hi]
  rfl

theorem row_first (c : Dev nD) (t : Fin cfg0.N) (h0 : t.val % 16 = 0) :
    k0_pay6 (F := Ideal) (iblk m c 0 t) (iblk m c 1 t) (k0_pay4 (F := Ideal)) = rowVec (XA m c) (YA m c) (t.val / 16) (t.val % 16) := by
  funext j
  obtain ⟨u, v, rfl⟩ : ∃ (u : Fin 1) (v : Fin 1), j = ix2 u v := ⟨j 0, j 1, eq_ix2 j⟩
  obtain rfl : u = 0 := Subsingleton.elim _ _
  obtain rfl : v = 0 := Subsingleton.elim _ _
  rw [Pay.pay6_apply, Pay.pay4_apply, tileRow_eq, h0]
  rfl

theorem row_next (c : Dev nD) (t : Fin cfg0.N) (i : ℕ) (hi : t.val % 16 = i + 1) (xs1 : Vec Ideal S1x1 .f32)
    (hxs : xs1 = rowVec (XA m c) (YA m c) (t.val / 16) i) :
    k0_pay6 (F := Ideal) (iblk m c 0 t) (iblk m c 1 t) xs1 = rowVec (XA m c) (YA m c) (t.val / 16) (t.val % 16) := by
  subst hxs
  funext j
  obtain ⟨u, v, rfl⟩ : ∃ (u : Fin 1) (v : Fin 1), j = ix2 u v := ⟨j 0, j 1, eq_ix2 j⟩
  obtain rfl : u = 0 := Subsingleton.elim _ _
  obtain rfl : v = 0 := Subsingleton.elim _ _
  rw [Pay.pay6_apply, tileRow_eq, hi]
  rfl

/-- After point n both carried buffers hold the running accumulators of batch n / 16 through tile n % 16. -/
theorem scratch_eq (c : Dev nD) : ∀ (n : ℕ) (h : n < cfg0.N),
    (outsAt0 m c n h).2.1 = colVec (XA m c) (YA m c) (n / 16) (n % 16)
      ∧ (outsAt0 m c n h).2.2 = rowVec (XA m c) (YA m c) (n / 16) (n % 16)
  | 0, h => by
    rw [outsAt0_A m c ⟨0, h⟩ rfl (by show ¬(0 % 16 = 15); decide)]
    dsimp only
    rw [Pieces.sA0, Pieces.sA1]
    exact ⟨col_first m c ⟨0, h⟩ rfl, row_first m c ⟨0, h⟩ rfl⟩
  | n + 1, h => by
    have hN : cfg0.N = 128 := N_0
    have ih := scratch_eq c n (Nat.lt_of_succ_lt h)
    have e : outsAt0 m c ((⟨n + 1, h⟩ : Fin cfg0.N).val - 1) (Nat.lt_of_le_of_lt (Nat.sub_le _ _) (⟨n + 1, h⟩ : Fin cfg0.N).isLt)
        = outsAt0 m c n (Nat.lt_of_succ_lt h) := rfl
    by_cases h0 : (n + 1) % 16 = 0
    · have h1 : ¬(n + 1) % 16 = 15 := by omega
      rw [outsAt0_A m c ⟨n + 1, h⟩ h0 h1]
      dsimp only
      rw [Pieces.sA0, Pieces.sA1]
      exact ⟨col_first m c ⟨n + 1, h⟩ h0, row_first m c ⟨n + 1, h⟩ h0⟩
    · have hq : (n + 1) / 16 = n / 16 := by omega
      have hr : (n + 1) % 16 = n % 16 + 1 := by omega
      by_cases h1 : (n + 1) % 16 = 15
      · rw [outsAt0_C m c ⟨n + 1, h⟩ h0 h1, e]
        dsimp only
        rw [Pieces.sC0, Pieces.sC1]
        exact ⟨col_next m c ⟨n + 1, h⟩ (n % 16) hr _ (by rw [ih.1]; exact congrArg (fun b => colVec (XA m c) (YA m c) b (n % 16)) hq.symm),
          row_next m c ⟨n + 1, h⟩ (n % 16) hr _ (by rw [ih.2]; exact congrArg (fun b => rowVec (XA m c) (YA m c) b (n % 16)) hq.symm)⟩
      · rw [outsAt0_B m c ⟨n + 1, h⟩ h0 h1, e]
        dsimp only
        rw [Pieces.sB0, Pieces.sB1]
        exact ⟨col_next m c ⟨n + 1, h⟩ (n % 16) hr _ (by rw [ih.1]; exact congrArg (fun b => colVec (XA m c) (YA m c) b (n % 16)) hq.symm),
          row_next m c ⟨n + 1, h⟩ (n % 16) hr _ (by rw [ih.2]; exact congrArg (fun b => rowVec (XA m c) (YA m c) b (n % 16)) hq.symm)⟩

/-- At a batch's last tile the output block holds the tiled form of the batch in every lane. -/
theorem out_eq (c : Dev nD) (t : Fin cfg0.N) (h15 : t.val % 16 = 15) :
    (outsAt0 m c t.val t.isLt).1 = fun _ => Kform (XA m c) (YA m c) (t.val / 16) := by
  have hN : cfg0.N = 128 := N_0
  have ht := t.isLt
  have h0 : ¬t.val % 16 = 0 := by omega
  have ih := scratch_eq m c (t.val - 1) (Nat.lt_of_le_of_lt (Nat.sub_le _ _) t.isLt)
  have hq : (t.val - 1) / 16 = t.val / 16 := by omega
  have hr : (t.val - 1) % 16 = 14 := by omega
  have hi : t.val % 16 = 14 + 1 := by omega
  rw [hq, hr] at ih
  rw [outsAt0_C m c t h0 h15]
  dsimp only
  rw [Pieces.oC2]
  funext j
  obtain ⟨u, v, l, rfl⟩ : ∃ (u : Fin 1) (v : Fin 1) (l : Fin 128), j = ix3 u v l := ⟨j 0, j 1, j 2, eq_ix3 j⟩
  obtain rfl : u = 0 := Subsingleton.elim _ _
  obtain rfl : v = 0 := Subsingleton.elim _ _
  rw [Pay.pay2_apply, col_next m c t 14 hi _ ih.1, row_next m c t 14 hi _ ih.2, h15]
  rfl

end Cert.KernelIdeal.Acc

end
-- ==== Proof.Result.lean ====
/-
  From the output blocks to the kernel program's result.

  The output window's block at grid point t is row t / 16 of the `[8, 1, 128]` output array, and it is written back only at
  a batch's last tile (t % 16 = 15), when it holds the batch's tiled chamfer sum in every lane. The eight write-backs
  cover the array, so after the region entry (b, 0, l) holds the sum of batch b; the two host operations after the
  region take lane 0 of each row and drop the unit axes: the program's result at b is the tiled sum of batch b.
-/
import proofs.«135261_j78391743087244_2_alg».proof.Proof.Accum
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Res

open Cert.KernelIdeal Cert.KernelIdeal.Gen Idealize.ShloMosaic.ValueIdx Cert.Chamfer

variable (m : (ℓ : Loc nD τ sig) → Buf (Elt Ideal) ℓ) (ρ : Dev nD → PrngReg)

/-- The output array after the region: every lane of row b holds the tiled sum of batch b. -/
def outArr (c : Dev nD) : Buf (Elt Ideal) ((c : Thread nD τ).loc main_v1) :=
  fun i => Kform (Acc.XA m c) (Acc.YA m c) (i 0).val

/-- What a write-back writes is the block of `outArr` it covers. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  obtain ⟨h0, h1, h2⟩ := Blk.idx2 t
  show (cfg0.win 2).cut (grid0.coords t) ((dats m 0 c).after 2 t) = _
  rw [after0_2, Acc.out_eq m c t h15]
  funext y
  rw [View.read_apply]
  unfold outArr
  show Kform (Acc.XA m c) (Acc.YA m c) (t.val / 16) = Kform (Acc.XA m c) (Acc.YA m c) ((((cfg0.win 2).blk t).view.emb y) 0).val
  refine congrArg (Kform (Acc.XA m c) (Acc.YA m c)) ?_
  show t.val / 16 = win0_2.index t 0 * 1 + 1 * (y 0).val
  have hy : (y 0).val < 1 := (y 0).isLt
  rw [h0]; omega

/-- An index of the output array is in point t's block iff each coordinate is in the block's range on its axis. -/
theorem mem_blk (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v1).slice (win0_2.rect t)).set ↔ _
  rw [View.set_slice_whole, Rect.mem_set_unit]
  exact Iff.rfl

/-- Row b of the output array is written back at the last tile of batch b. -/
theorem cover (i : S8x1x128.Idx) : ∃ t : Fin cfg0.N, (cfg0.win 2).flush t = true ∧ i ∈ ((cfg0.win 2).blk t).view.set := by
  have hN : cfg0.N = 128 := N_0
  have hb : (i 0).val < 8 := (i 0).isLt
  have h1 : (i 1).val < 1 := (i 1).isLt
  have h2 : (i 2).val < 128 := (i 2).isLt
  have hlt : 16 * (i 0).val + 15 < cfg0.N := by omega
  refine ⟨⟨16 * (i 0).val + 15, hlt⟩, (flush0_2 _).mpr (by show (16 * (i 0).val + 15) % 16 = 15; omega), ?_⟩
  obtain ⟨e0, e1, e2⟩ := Blk.idx2 ⟨16 * (i 0).val + 15, hlt⟩
  have e0' : win0_2.index ⟨16 * (i 0).val + 15, hlt⟩ (0 : Fin 3) = (i 0).val := by rw [e0]; show (16 * (i 0).val + 15) / 16 = _; omega
  rw [mem_blk]
  intro a
  match a with
  | ⟨0, _⟩ => show win0_2.index ⟨16 * (i 0).val + 15, hlt⟩ (0 : Fin 3) * 1 ≤ (i 0).val ∧ (i 0).val < win0_2.index ⟨16 * (i 0).val + 15, hlt⟩ (0 : Fin 3) * 1 + 1; omega
  | ⟨1, _⟩ => show win0_2.index ⟨16 * (i 0).val + 15, hlt⟩ (1 : Fin 3) * 1 ≤ (i 1).val ∧ (i 1).val < win0_2.index ⟨16 * (i 0).val + 15, hlt⟩ (1 : Fin 3) * 1 + 1; omega
  | ⟨2, _⟩ => show win0_2.index ⟨16 * (i 0).val + 15, hlt⟩ (2 : Fin 3) * 128 ≤ (i 2).val ∧ (i 2).val < win0_2.index ⟨16 * (i 0).val + 15, hlt⟩ (2 : Fin 3) * 128 + 128; omega

/-- The output array after the last grid point. -/
theorem final (c : Dev nD) : (dats m 0 c).arrAt 2 cfg0.N = outArr m c :=
  (dats m 0 c).arrAt_eq_of_cover 2 (outArr m c) (fun t hf => flushed_eq m c t hf) (fun i => cover i)

/-- The program's result after the two host operations that follow the region: the tiled sum of each batch. -/
theorem tail_v3 (c : Dev nD) :
    Pipeline.afterTail₀ cfgs (dats m) 0 (V0 m) [hostOps1] c main_v3 = fun j => Kform (Acc.XA m c) (Acc.YA m c) (j 0).val := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = outArr m c := (Pipeline.withArrays_arr spec0 launch0.win.arr_inj c _ _ 2).trans (final m c)
  funext j
  obtain ⟨b, rfl⟩ : ∃ b : Fin 8, j = ix1 b := ⟨j 0, eq_ix1 j⟩
  show shapeCast S8 (extractStridedSlice S8x1x1 ![0, 0, 0]
      (Pipeline.withArrays (cfgs 0).spec c (V0 m c) (fun w => (dats m 0 c).arrAt w (cfgs 0).N) (Proc.devRef .tc main_v1))
      slices_S8x1x128_S8x1x1_0_0_0) shapeCasts_S8x1x1_S8 (ix1 b) = _
  rw [hw]
  refine (shapeCast_apply _ shapeCasts_S8x1x1_S8 (ix1 b) (ix3 b (0 : Fin 1) (0 : Fin 1)) ?_).trans ?_
  · rw [Shape.rowMajor_val_three, Shape.rowMajor_val_one]
    show (b.val * 1 + 0) * 1 + 0 = b.val
    omega
  refine (extractStridedSlice_apply _ (outArr m c) slices_S8x1x128_S8x1x1_0_0_0 (ix3 b (0 : Fin 1) (0 : Fin 1))
    (ix3 b (0 : Fin 1) (0 : Fin 128)) ?_).trans ?_
  · intro a
    match a with
    | ⟨0, _⟩ => exact (Nat.zero_add _).symm
    | ⟨1, _⟩ => exact (Nat.zero_add _).symm
    | ⟨2, _⟩ => exact (Nat.zero_add _).symm
  rfl

/-- THE KERNEL PROGRAM'S RUN, read: every weakly fair execution terminates with the result at the tiled chamfer sum of
    each batch and both clouds unchanged. -/
theorem run : θ_run defs (onTc (τ := τ) (main (F := Ideal))) ⟨m, fun _ => 0, ρ⟩ fun r => ∀ c : Dev nD,
      r.2.mem ((c : Thread nD τ).loc main_v3) = (fun j => Kform (Acc.XA m c) (Acc.YA m c) (j 0).val)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (tail_v3 m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Res

end
-- ==== Proof.RefRead.lean ====
/-
  The reference program read as the pure form `Rform`.

  The squared distance the program forms at (b, n, m) is |x|² + |y|² − 2 x·y, each of the three sums over the three
  axes; its two minima over one axis are folds of `min` from +∞ over that axis's coordinates; the result at batch `b`
  is the sum over n of the minimum over m plus the sum over m of the minimum over n.
-/
import proofs.«135261_j78391743087244_2_alg».proof.Proof.Spec
import proofs.«135261_j78391743087244_2_alg».proof.Proof.Gen.ReferenceIdeal.Read
import Idealize.ShloMosaic.Lib.ValueIdx
import Idealize.ShloMosaic.PureOps.Ideal.Laws
import Idealize.ShloMosaic.PureOps.Reduce
import Idealize.ShloMosaic.Lib.Pipeline.Value

noncomputable section

open scoped BigOperators

namespace Cert.Chamfer.Ref

open Cert.ReferenceIdeal Cert.ReferenceIdeal.Gen Cert.ReferenceIdeal.Read Idealize.ShloMosaic Idealize.ShloMosaic.ValueIdx
open Cert.Chamfer

/-- The shape fact of the minimum over the last axis, in the form that names the inserted index. -/
theorem red_d2 : S8x4096x4096.Reduces [2] S8x4096 := by decide
/-- The shape fact of the minimum over the middle axis. -/
theorem red_d1 : S8x4096x4096.Reduces [1] S8x4096 := by decide

/-- The distance array at (b, n, m) is the expanded squared distance of point n of the first cloud and point m of the
    second in batch b. -/
theorem dist_apply (x0 x1 : (⟨S8x4096x3, .f32⟩ : BufTy).Contents (Elt Ideal)) (b : Fin 8) (n m : Fin 4096) :
    val_main_v12 (F := Ideal) x0 x1 (ix3 b n m) = dR (at3 x0) (at3 x1) b.val n.val m.val := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v5_apply,
    val_main_v1_apply, val_main_v8_apply, val_main_v6_apply, val_main_v3_apply, val_main_v10_apply,
    val_main_cst_1_apply, val_main_v4_apply, val_main_cst_apply, val_main_cst_0_apply]
  simp only [val_main_v0_apply, val_main_v2_apply, e1, e3, el, er, dR, at3_ix3]
  rfl

/-- The minimum over the last axis at (b, n): the fold of `min` from +∞ over m of the distance at (b, n, m). -/
theorem minLast_apply (x0 x1 : (⟨S8x4096x3, .f32⟩ : BufTy).Contents (Elt Ideal)) (b : Fin 8) (n : Fin 4096) :
    val_main_v13 (F := Ideal) x0 x1 (ix2 b n)
      = minF fun m : Fin 4096 => dR (at3 x0) (at3 x1) b.val n.val m.val := by
  unfold val_main_v13
  rw [Host.reduce_eq_fold_single FloatOps.minimumf _ _ reducesTo_S8x4096x4096_S8x4096_d2 red_d2 h_S_]
  have ef : (val_main_v12 (F := Ideal) x0 x1 ∘ red_d2.lift (ix2 b n))
      = fun m : Fin 4096 => dR (at3 x0) (at3 x1) b.val n.val m.val := by
    refine funext fun (m : Fin 4096) => ?_
    have ei : red_d2.lift (ix2 b n) m = ix3 b n m :=
      funext fun a => Fin.ext (by match a with | ⟨0, _⟩ => rfl | ⟨1, _⟩ => rfl | ⟨2, _⟩ => rfl)
    show val_main_v12 (F := Ideal) x0 x1 (red_d2.lift (ix2 b n) m) = _
    rw [ei, dist_apply]
  rw [ef, val_main_cst_2_apply]
  rfl

/-- The minimum over the middle axis at (b, m): the fold of `min` from +∞ over n of the distance at (b, n, m). -/
theorem minMid_apply (x0 x1 : (⟨S8x4096x3, .f32⟩ : BufTy).Contents (Elt Ideal)) (b : Fin 8) (m : Fin 4096) :
    val_main_v15 (F := Ideal) x0 x1 (ix2 b m)
      = minF fun n : Fin 4096 => dR (at3 x0) (at3 x1) b.val n.val m.val := by
  unfold val_main_v15
  rw [Host.reduce_eq_fold_single FloatOps.minimumf _ _ reducesTo_S8x4096x4096_S8x4096_d1 red_d1 h_S_]
  have ef : (val_main_v12 (F := Ideal) x0 x1 ∘ red_d1.lift (ix2 b m))
      = fun n : Fin 4096 => dR (at3 x0) (at3 x1) b.val n.val m.val := by
    refine funext fun (n : Fin 4096) => ?_
    have ei : red_d1.lift (ix2 b m) n = ix3 b n m :=
      funext fun a => Fin.ext (by match a with | ⟨0, _⟩ => rfl | ⟨1, _⟩ => rfl | ⟨2, _⟩ => rfl)
    show val_main_v12 (F := Ideal) x0 x1 (red_d1.lift (ix2 b m) n) = _
    rw [ei, dist_apply]
  rw [ef, val_main_cst_4_apply]
  rfl

/-- The reference's result at batch b is the chamfer sum over the expanded distance. -/
theorem ref_eq_Rform (x0 x1 : (⟨Cert.ReferenceIdeal.S8x4096x3, .f32⟩ : BufTy).Contents (Elt Ideal)) :
    Cert.ReferenceIdeal.Read.val_main_v17 (F := Ideal) x0 x1
      = fun j => Cert.Chamfer.Rform (Cert.Chamfer.at3 x0) (Cert.Chamfer.at3 x1) (j 0).val := by
  funext j
  obtain ⟨b, rfl⟩ : ∃ b : Fin 8, j = ix1 b := ⟨j 0, eq_ix1 j⟩
  have e14 : ∀ k : Fin 4096, idx_main_v14 (ix1 b) k = ix2 b k := fun k =>
    funext fun a => Fin.ext (by match a with | ⟨0, _⟩ => rfl | ⟨1, _⟩ => rfl)
  have e16 : ∀ k : Fin 4096, idx_main_v16 (ix1 b) k = ix2 b k := fun k =>
    funext fun a => Fin.ext (by match a with | ⟨0, _⟩ => rfl | ⟨1, _⟩ => rfl)
  rw [val_main_v17_apply, val_main_v14_apply, val_main_v16_apply, val_main_cst_3_apply, val_main_cst_5_apply]
  simp only [e14, e16, minLast_apply, minMid_apply]
  rfl

end Cert.Chamfer.Ref

end
-- ==== Proof.Algebra.lean ====
/-
  Extended-real algebra between the three forms of the chamfer sum.

  * the three literals evaluate to +∞, 0 and 2;
  * with real coordinates, |x|² + |y|² − 2 x·y equals the sum of squared differences, so `Rform = G`;
  * a sum over 4096 points is the sum over sixteen tiles of the sums over 256 points, and likewise for minima, so the
    tiled accumulation `Kform` equals `G` (sums and minima over the extended reals regroup with no side condition).
-/
import proofs.«135261_j78391743087244_2_alg».proof.Proof.Spec

noncomputable section

open scoped BigOperators

namespace Cert.Chamfer

open Idealize.ShloMosaic Idealize.ShloMosaic.ValueIdx

/-! ### The literals -/

theorem INF_eq_top : INF = ⊤ := by simp [Ideal.ofBits, Ideal.ieee]

theorem Z_eq_zero : Z = 0 := Ideal.ofBits_zero_f32

theorem TWO_eq_two : TWO = ((2 : ℝ) : EReal) := by
  simp [Ideal.ofBits, Ideal.ieee]
  norm_cast
  norm_num

/-! ### Array reads are real when the array is -/

theorem at3_finite (x : (⟨3, ![8, 4096, 3]⟩ : Shape).Idx → EReal) (hx : ∀ i, ∃ r : ℝ, x i = (r : EReal)) :
    ∀ b n k, ∃ r : ℝ, at3 x b n k = (r : EReal) := by
  intro b n k
  unfold at3
  split
  · exact hx _
  · exact ⟨0, by simp⟩

variable (X Y : ℕ → ℕ → ℕ → EReal)

/-! ### The expanded squared distance -/

theorem dR_eq_dK (hX : ∀ b n k, ∃ r : ℝ, X b n k = (r : EReal)) (hY : ∀ b n k, ∃ r : ℝ, Y b n k = (r : EReal))
    (b n m : ℕ) : dR X Y b n m = dK X Y b n m := by
  obtain ⟨x0, h0⟩ := hX b n 0
  obtain ⟨x1, h1⟩ := hX b n 1
  obtain ⟨x2, h2⟩ := hX b n 2
  obtain ⟨y0, g0⟩ := hY b m 0
  obtain ⟨y1, g1⟩ := hY b m 1
  obtain ⟨y2, g2⟩ := hY b m 2
  unfold dR dK
  rw [Z_eq_zero, TWO_eq_two]
  simp only [Fin.sum_univ_three, Fin.val_zero, Fin.val_one, Fin.val_two, h0, h1, h2, g0, g1, g2]
  norm_cast
  ring

theorem Rform_eq_G (hX : ∀ b n k, ∃ r : ℝ, X b n k = (r : EReal)) (hY : ∀ b n k, ∃ r : ℝ, Y b n k = (r : EReal))
    (b : ℕ) : Rform X Y b = G X Y b := by
  unfold Rform G
  simp only [dR_eq_dK X Y hX hY]

/-! ### Minima as infima -/

/-- The fold of `min` from +∞ is the infimum over the index type. -/
theorem minF_eq_inf {n : ℕ} (f : Fin n → EReal) : minF f = Finset.univ.inf f := by
  unfold minF
  rw [INF_eq_top]
  rfl

/-- The infimum over 4096 points is the infimum over sixteen tiles of the infima over the tiles' 256 points. -/
theorem inf_tiles (g : ℕ → EReal) :
    (Finset.univ : Finset (Fin 4096)).inf (fun n => g n) =
      (Finset.range 16).inf (fun j => (Finset.univ : Finset (Fin 256)).inf (fun r => g (256 * j + r))) := by
  apply le_antisymm
  · apply Finset.le_inf
    intro j hj
    apply Finset.le_inf
    intro r _
    have hj' : j < 16 := Finset.mem_range.mp hj
    have hlt : 256 * j + r.val < 4096 := by have := r.isLt; omega
    exact Finset.inf_le (f := fun n : Fin 4096 => g n) (Finset.mem_univ (⟨256 * j + r.val, hlt⟩ : Fin 4096))
  · apply Finset.le_inf
    intro n _
    have hn := n.isLt
    have hj : n.val / 256 ∈ Finset.range 16 := Finset.mem_range.mpr (by omega)
    have hr : n.val % 256 < 256 := Nat.mod_lt _ (by norm_num)
    refine le_trans (Finset.inf_le hj) ?_
    refine le_trans (Finset.inf_le (Finset.mem_univ (⟨n.val % 256, hr⟩ : Fin 256))) ?_
    show g (256 * (n.val / 256) + n.val % 256) ≤ g n.val
    rw [Nat.div_add_mod]

/-! ### Sums over tiles -/

/-- A sum over `256 T` naturals is the sum over `T` tiles of the sums over the tiles' 256 naturals. -/
theorem sum_range_tiles (f : ℕ → EReal) (T : ℕ) :
    ∑ n ∈ Finset.range (256 * T), f n = ∑ j ∈ Finset.range T, ∑ r ∈ Finset.range 256, f (256 * j + r) := by
  induction T with
  | zero => simp
  | succ T ih =>
    rw [Nat.mul_succ, Finset.sum_range_add, ih,
      Finset.sum_range_succ (fun j => ∑ r ∈ Finset.range 256, f (256 * j + r)) T]

/-- The sum over 4096 points is the sum over sixteen tiles of the sums over the tiles' 256 points. -/
theorem sum_tiles (f : ℕ → EReal) :
    ∑ n : Fin 4096, f n = ∑ j ∈ Finset.range 16, ∑ r : Fin 256, f (256 * j + r) := by
  rw [Fin.sum_univ_eq_sum_range f 4096, show (4096 : ℕ) = 256 * 16 from rfl, sum_range_tiles]
  refine Finset.sum_congr rfl fun j _ => ?_
  exact (Fin.sum_univ_eq_sum_range (fun r => f (256 * j + r)) 256).symm

/-! ### The running accumulators -/

/-- The running row sum after tile `i` is zero plus the sum of the tiles' row sums. -/
theorem rowN_eq (b i : ℕ) : rowN X Y b i = Z + ∑ j ∈ Finset.range (i + 1), tileRow X Y b j := by
  induction i with
  | zero => simp [rowN]
  | succ i ih => rw [rowN, ih, Finset.sum_range_succ _ (i + 1), add_assoc]

/-- The running column minimum after tile `i` is the infimum of the tiles' column minima. -/
theorem colN_eq (b i m : ℕ) :
    colN X Y b i m = (Finset.range (i + 1)).inf (fun j => tileCol X Y b j m) := by
  induction i with
  | zero => rw [colN, INF_eq_top]; simp
  | succ i ih =>
    rw [colN, ih, Finset.range_add_one (n := i + 1), Finset.inf_insert, inf_comm]

/-! ### The tiled form -/

theorem Kform_eq_G (b : ℕ) : Kform X Y b = G X Y b := by
  unfold Kform G
  rw [rowN_eq]
  have hrow : ∑ j ∈ Finset.range (15 + 1), tileRow X Y b j
      = ∑ n : Fin 4096, minF fun m : Fin 4096 => dK X Y b n m := by
    rw [sum_tiles (fun n => minF fun m : Fin 4096 => dK X Y b n m)]
    rfl
  have hcol : ∀ m : ℕ, colN X Y b 15 m = minF fun n : Fin 4096 => dK X Y b n m := by
    intro m
    rw [colN_eq, minF_eq_inf, inf_tiles (fun n => dK X Y b n m)]
    refine Finset.inf_congr rfl fun j _ => ?_
    rw [tileCol, minF_eq_inf]
  rw [hrow]
  simp only [hcol]
  rw [Z_eq_zero, zero_add, zero_add]

end Cert.Chamfer

end
-- ==== Proof.Finite.lean ====
import proofs.«135261_j78391743087244_2_alg».proof.Defs
import proofs.«135261_j78391743087244_2_alg».proof.Proof.Gen.Pre_finite_inputs
import Idealize.ShloMosaic.Lib.ReduceAll
import Idealize.ShloMosaic.Lib.ValueIdx

/-!
# From the precondition to "every input entry is a real number"

The precondition evaluates, for each of the two input arrays `x`, the conjunction over all
indices `i` of the comparison `|x i| < +∞`, and then the conjunction of the two results.
In the extended reals `|a| = max a (-a)`, and `max a (-a) < ⊤` excludes both `a = ⊤` and
`a = ⊥` (for which `-a = ⊤`), so `a` is the image of a real number.
-/

open Idealize.ShloMosaic Idealize.SL.Sem

namespace Cert.Chamfer.Finite

open Cert.Pre_finite_inputs

/-- The rank-0 shape has exactly one index. -/
instance : Subsingleton S_.Idx := ⟨fun a b => funext fun d => d.elim0⟩

/-- The pattern `0x7F800000` (sign 0, exponent all ones, fraction 0) denotes `+∞`. -/
theorem inf_eq_top : Ideal.ofBits .f32 0x7F800000#32 = (⊤ : EReal) := by
  simp [Ideal.ofBits, Ideal.ieee]

/-- An extended real whose absolute value `max a (-a)` is strictly below `⊤` is a real number. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- The scalar comparison the precondition makes at one entry: if `|a| < +∞` evaluates to the bit 1,
    then `a` is a real number. -/
theorem real_of_cmp (a : Ideal .f32)
    (h : FloatOps.cmpf .olt (FloatOps.hostAbsf a) (FloatOps.ofBits (F := Ideal) .f32 0x7F800000#32) = 1#1) :
    ∃ r : ℝ, a = (r : EReal) := by
  apply real_of_abs_lt_top
  -- at the idealized reals the comparison is the order's, and the absolute value is `max a (-a)`
  change Ideal.cmp .olt (max a (-a)) (Ideal.ofBits .f32 0x7F800000#32) = 1#1 at h
  rw [inf_eq_top] at h
  by_contra hn
  have hd : Ideal.cmp .olt (max a (-a)) (⊤ : EReal) = BitVec.ofBool (decide (max a (-a) < (⊤ : EReal))) := rfl
  rw [hd, decide_eq_false hn] at h
  exact absurd h (by decide)

/-- One `all`-reduction of the precondition: if the conjunction over all indices of `|x i| < +∞`
    is 1, every entry of `x` is a real number. -/
theorem finite_of_all [Cert.Pre_finite_inputs.Facts] (x : FVec Ideal Cert.Pre_finite_inputs.S8x4096x3 .f32)
    (h : Host.reduce IntOp.andi
        (cmpf CmpFPredicate.olt (Host.absf x)
          (broadcastInDim S8x4096x3 ![] Facts.bcast_S_S8x4096x3 (constant S_ FTy.f32 0x7F800000#32)))
        (constantI S_ 1 1#1) Facts.reducesTo_S8x4096x3_S_d0_1_2 Facts.h_S_ ValueIdx.ix0 = 1#1) :
    ∀ i, ∃ r : ℝ, x i = (r : EReal) := by
  intro i
  exact real_of_cmp (x i) (Host.reduce_andi_all _ _ _ _ _ h i)

theorem finite_of_fn [Cert.Pre_finite_inputs.Facts] (x0 x1 : FVec Ideal Cert.Pre_finite_inputs.S8x4096x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  unfold Cert.Pre_finite_inputs.fn at h0
  dsimp only at h0
  obtain ⟨ha, hb⟩ := IntOp.andi_eq_one.1 h0
  exact ⟨finite_of_all x0 ha, finite_of_all x1 hb⟩

theorem finite_of_pre [hP : Cert.Pre_finite_inputs.Facts] (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  finite_of_fn _ _ (h c)

end Cert.Chamfer.Finite
-- ==== Proof.lean ====
/-
  The chamfer kernel against its reference: both compute, for each of the eight batches, the sum over the first
  cloud's 4096 points of the least squared distance to the second cloud plus the sum over the second cloud's points of
  the least squared distance to the first.

  The kernel forms each squared distance as a sum of three squared differences and accumulates, over sixteen tiles of
  256 points, a running sum of row minima and a running column minimum, adding the column minima's sum at the last tile;
  the reference forms the distance as |x|² + |y|² − 2 x·y and reduces the whole 4096 × 4096 matrix twice. For finite
  inputs the two distances are the same real number (the expansion of a square needs finiteness: it uses
  distributivity), and sums and minima over the extended reals regroup freely, so both programs end at one function
  `G` of the two clouds.

  The three frames are the programs' runs with the results dropped; the idealization rewrote nothing.
-/
import proofs.«135261_j78391743087244_2_alg».proof.Defs
import proofs.«135261_j78391743087244_2_alg».proof.Proof.Gen.Kernel
import proofs.«135261_j78391743087244_2_alg».proof.Proof.Gen.Kernel.Skeleton
import proofs.«135261_j78391743087244_2_alg».proof.Proof.Gen.Kernel.Launch
import proofs.«135261_j78391743087244_2_alg».proof.Proof.Gen.Kernel.Points
import proofs.«135261_j78391743087244_2_alg».proof.Proof.Gen.Kernel.Frame
import proofs.«135261_j78391743087244_2_alg».proof.Proof.Gen.KernelIdeal
import proofs.«135261_j78391743087244_2_alg».proof.Proof.Gen.KernelIdeal.Skeleton
import proofs.«135261_j78391743087244_2_alg».proof.Proof.Gen.KernelIdeal.Launch
import proofs.«135261_j78391743087244_2_alg».proof.Proof.Gen.KernelIdeal.Points
import proofs.«135261_j78391743087244_2_alg».proof.Proof.Gen.KernelIdeal.Frame
import proofs.«135261_j78391743087244_2_alg».proof.Proof.Gen.ReferenceIdeal
import proofs.«135261_j78391743087244_2_alg».proof.Proof.Gen.ReferenceIdeal.Read
import proofs.«135261_j78391743087244_2_alg».proof.Proof.Gen.Pre_finite_inputs
import proofs.«135261_j78391743087244_2_alg».proof.Proof.Result
import proofs.«135261_j78391743087244_2_alg».proof.Proof.RefRead
import proofs.«135261_j78391743087244_2_alg».proof.Proof.Algebra
import proofs.«135261_j78391743087244_2_alg».proof.Proof.Finite
import Idealize.ShloMosaic.Adequacy
import Idealize.ShloMosaic.Init

noncomputable section

namespace Cert.Proof

open Idealize.ShloMosaic Idealize.ShloMosaic.TcCoe Idealize.SL.Sem Cert.Chamfer

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- Both runs end with the result at `G` of the two clouds: the kernel's tiled form regroups to it, the reference's
    expanded distance equals the sum of squared differences because the inputs are finite. -/
theorem algebraic : Cert.algebraic_KernelIdeal_ReferenceIdeal := by
  intro m ρ m' ρ' hpre hagree
  refine ⟨fun c j => G (Cert.KernelIdeal.Acc.XA m c) (Cert.KernelIdeal.Acc.YA m c) (j 0).val,
    fun c j => G (Cert.KernelIdeal.Acc.XA m c) (Cert.KernelIdeal.Acc.YA m c) (j 0).val, ?_, ?_⟩
  · refine (θ_run Cert.KernelIdeal.defs _ _).mono (fun r h c => ?_) (Cert.KernelIdeal.Res.run m ρ)
    have hk : (fun j : Cert.KernelIdeal.S8.Idx => Kform (Cert.KernelIdeal.Acc.XA m c) (Cert.KernelIdeal.Acc.YA m c) (j 0).val)
        = fun j => G (Cert.KernelIdeal.Acc.XA m c) (Cert.KernelIdeal.Acc.YA m c) (j 0).val :=
      funext fun j => Kform_eq_G _ _ _
    exact ⟨(h c).1.trans hk, (h c).1.trans hk, (h c).2.1, (h c).2.2⟩
  · refine (θ_run Cert.ReferenceIdeal.defs _ _).mono (fun r h c => ?_)
      (Cert.ReferenceIdeal.Value.run (F := Ideal) m' ρ')
    obtain ⟨hx, hy⟩ := Cert.Chamfer.Finite.finite_of_pre m hpre c
    have hr : Cert.ReferenceIdeal.Read.val_main_v17 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
        = fun j => G (Cert.KernelIdeal.Acc.XA m c) (Cert.KernelIdeal.Acc.YA m c) (j 0).val := by
      rw [Cert.Chamfer.Ref.ref_eq_Rform, (hagree c).1, (hagree c).2]
      funext j
      exact Rform_eq_G _ _ (at3_finite _ hx) (at3_finite _ hy) _
    exact ⟨(h c).1.trans ((Cert.ReferenceIdeal.Read.val_main_v17_eq _ _).trans hr),
      (h c).2.1.trans ((Cert.ReferenceIdeal.Read.val_main_v17_eq _ _).trans hr), (h c).2.2.1, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
